-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x1024 : Shape := ⟨2, ![4096, 1024]⟩
abbrev S1024 : Shape := ⟨1, ![1024]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x1024 .f32) (main_arg2 : FVec F S1024 .f32) (main_arg3 : FVec F S4096x1024 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4x2048x4096 : Shape := ⟨3, ![4, 2048, 4096]⟩
abbrev S4096x1024 : Shape := ⟨2, ![4096, 1024]⟩
abbrev S1024 : Shape := ⟨1, ![1024]⟩
abbrev S4096 : Shape := ⟨1, ![4096]⟩
abbrev S8192x4096 : Shape := ⟨2, ![8192, 4096]⟩
abbrev S1x1024 : Shape := ⟨2, ![1, 1024]⟩
abbrev S1x4096 : Shape := ⟨2, ![1, 4096]⟩
abbrev S256x4096 : Shape := ⟨2, ![256, 4096]⟩
abbrev S256x1024 : Shape := ⟨2, ![256, 1024]⟩

abbrev nBuf : Space → Nat
  | .hbm => 14
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096, .f32⟩
  | .hbm, ⟨5, _⟩ => ⟨S8192x4096, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S1x4096, .f32⟩
  | .hbm, ⟨12, _⟩ => ⟨S8192x4096, .f32⟩
  | .hbm, ⟨13, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x1024, .bf16⟩
  | .local _ .vmem, ⟨3, _⟩ => ⟨S4096x1024, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x4096_S8192x4096 : S4x2048x4096.ShapeCasts S8192x4096
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x1024_S256x1024_1_0_0_1_n_n_wf : DotDims.WF S256x4096 S4096x1024 S256x1024 [1] [0] [0] [1] [] []
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x1024 : Shape := ⟨2, ![4096, 1024]⟩
abbrev S1024 : Shape := ⟨1, ![1024]⟩
abbrev S4096 : Shape := ⟨1, ![4096]⟩
abbrev S1x1024 : Shape := ⟨2, ![1, 1024]⟩
abbrev S1024x4096 : Shape := ⟨2, ![1024, 4096]⟩
abbrev S4096x4096 : Shape := ⟨2, ![4096, 4096]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x1024_S1024x4096_S4096x4096_1_0_0_1_n_n_wf : DotDims.WF S4096x1024 S1024x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The specification: the low-rank linear layer as one function of the five argument arrays, in the two
  arrangements the two programs compute it in, and the law that joins them.

  With `x : [4, 2048, 4096]`, `U, V : [4096, 1024]`, `S : [1024]`, `bias : [4096]`, the entry `(b, t, q)` of the
  result is

      bias q + Σ_o Σ_r  x (b, t, o) · V (o, r) · S r · U (q, r).

  The reference forms the square matrix first, `M (q, o) = Σ_r (U (q, r) · S r) · V (o, r)`, and contracts `x` with
  it over `o` (`viaMatrix`). The kernel never forms `M`: it scales `V` by `S`, contracts `x` with that over `o`
  to a rank-1024 vector, and contracts the vector with row `q` of `U` over `r` (`viaRank`). The two are one
  number by distributing each product over the other sum and exchanging the two sums — valid for real numbers,
  which finite inputs are (on the extended reals the steps fail at the infinities).
-/
import Idealize.ShloMosaic.PureOps.Ideal
import Idealize.ShloMosaic.Lib.ValueIdx

noncomputable section

namespace Cert.SvdLinear.Spec

open Idealize.ShloMosaic Idealize.ShloMosaic.ValueIdx

/-- The entry `(b, t, q)` as the reference arranges it: `x`'s row against the matrix `M = (U · diag S) · Vᵀ`. -/
def viaMatrix (x : (⟨3, ![4, 2048, 4096]⟩ : Shape).Idx → EReal) (U : (⟨2, ![4096, 1024]⟩ : Shape).Idx → EReal)
    (S : (⟨1, ![1024]⟩ : Shape).Idx → EReal) (V : (⟨2, ![4096, 1024]⟩ : Shape).Idx → EReal)
    (bias : (⟨1, ![4096]⟩ : Shape).Idx → EReal) : (⟨3, ![4, 2048, 4096]⟩ : Shape).Idx → EReal := fun i =>
  (∑ o : Fin 4096, x (ix3 (i 0) (i 1) o) * ∑ r : Fin 1024, (U (ix2 (i 2) r) * S (ix1 r)) * V (ix2 o r)) + bias (ix1 (i 2))

/-- The entry `(b, t, q)` as the kernel arranges it: `x`'s row against `V · diag S`, then against row `q` of `U`. -/
def viaRank (x : (⟨3, ![4, 2048, 4096]⟩ : Shape).Idx → EReal) (U : (⟨2, ![4096, 1024]⟩ : Shape).Idx → EReal)
    (S : (⟨1, ![1024]⟩ : Shape).Idx → EReal) (V : (⟨2, ![4096, 1024]⟩ : Shape).Idx → EReal)
    (bias : (⟨1, ![4096]⟩ : Shape).Idx → EReal) : (⟨3, ![4, 2048, 4096]⟩ : Shape).Idx → EReal := fun i =>
  (∑ r : Fin 1024, (∑ o : Fin 4096, x (ix3 (i 0) (i 1) o) * (V (ix2 o r) * S (ix1 r))) * U (ix2 (i 2) r)) + bias (ix1 (i 2))

/-- `viaMatrix` at explicit coordinates. -/
theorem viaMatrix_apply (x : (⟨3, ![4, 2048, 4096]⟩ : Shape).Idx → EReal) (U : (⟨2, ![4096, 1024]⟩ : Shape).Idx → EReal)
    (S : (⟨1, ![1024]⟩ : Shape).Idx → EReal) (V : (⟨2, ![4096, 1024]⟩ : Shape).Idx → EReal)
    (bias : (⟨1, ![4096]⟩ : Shape).Idx → EReal) (b : Fin 4) (t : Fin 2048) (q : Fin 4096) :
    viaMatrix x U S V bias (ix3 b t q)
      = (∑ o : Fin 4096, x (ix3 b t o) * ∑ r : Fin 1024, (U (ix2 q r) * S (ix1 r)) * V (ix2 o r)) + bias (ix1 q) := rfl

/-- `viaRank` at explicit coordinates. -/
theorem viaRank_apply (x : (⟨3, ![4, 2048, 4096]⟩ : Shape).Idx → EReal) (U : (⟨2, ![4096, 1024]⟩ : Shape).Idx → EReal)
    (S : (⟨1, ![1024]⟩ : Shape).Idx → EReal) (V : (⟨2, ![4096, 1024]⟩ : Shape).Idx → EReal)
    (bias : (⟨1, ![4096]⟩ : Shape).Idx → EReal) (b : Fin 4) (t : Fin 2048) (q : Fin 4096) :
    viaRank x U S V bias (ix3 b t q)
      = (∑ r : Fin 1024, (∑ o : Fin 4096, x (ix3 b t o) * (V (ix2 o r) * S (ix1 r))) * U (ix2 q r)) + bias (ix1 q) := rfl

/-- A finite sum of real numbers, read in the extended reals, is the sum read there. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The law, over the reals: both arrangements are the double sum of `x o · V o r · S r · U r`. -/
theorem regroup {O R : Type*} [Fintype O] [Fintype R] (x : O → ℝ) (V : O → R → ℝ) (S U : R → ℝ) :
    ∑ r, (∑ o, x o * (V o r * S r)) * U r = ∑ o, x o * ∑ r, (U r * S r) * V o r := by
  simp only [Finset.sum_mul, Finset.mul_sum]
  rw [Finset.sum_comm]
  exact Finset.sum_congr rfl fun o _ => Finset.sum_congr rfl fun r _ => by ring

/-- On arrays of real numbers the two arrangements agree at every entry. -/
theorem viaRank_eq_viaMatrix (x : (⟨3, ![4, 2048, 4096]⟩ : Shape).Idx → EReal) (U : (⟨2, ![4096, 1024]⟩ : Shape).Idx → EReal)
    (S : (⟨1, ![1024]⟩ : Shape).Idx → EReal) (V : (⟨2, ![4096, 1024]⟩ : Shape).Idx → EReal)
    (bias : (⟨1, ![4096]⟩ : Shape).Idx → EReal)
    (hx : ∀ i, ∃ r : ℝ, x i = (r : EReal)) (hU : ∀ i, ∃ r : ℝ, U i = (r : EReal)) (hS : ∀ i, ∃ r : ℝ, S i = (r : EReal))
    (hV : ∀ i, ∃ r : ℝ, V i = (r : EReal)) (hb : ∀ i, ∃ r : ℝ, bias i = (r : EReal)) :
    viaRank x U S V bias = viaMatrix x U S V bias := by
  choose xr hx using hx
  choose Ur hU using hU
  choose Sr hS using hS
  choose Vr hV using hV
  choose br hb using hb
  funext i
  simp only [viaRank, viaMatrix, hx, hU, hS, hV, hb, ← EReal.coe_mul, coe_sum]
  rw [regroup (fun o => xr (ix3 (i 0) (i 1) o)) (fun o r => Vr (ix2 o r)) (fun r => Sr (ix1 r)) (fun r => Ur (ix2 (i 2) r))]

end Cert.SvdLinear.Spec

end
-- ==== Proof.Finite.lean ====
/-
  Finite inputs are real numbers.

  The precondition says, of each of the five argument arrays, that every entry's absolute value is below +∞.
  On the extended reals that excludes both infinities, so every entry is (the image of) a real number. The value
  proof needs exactly this: the two programs arrange the same triple sum differently, and moving a factor across a
  sum or exchanging two sums is valid for real numbers but not at the infinities.
-/
import proofs.«134678_j88914412962285_2_alg».proof.Pre_finite_inputs
import Idealize.ShloMosaic.Lib.ReduceAll
import Idealize.ShloMosaic.Lib.ValueIdx
import Idealize.ShloMosaic.PureOps.Ideal.Laws

noncomputable section

namespace Cert.SvdLinear.Finite

open Idealize.ShloMosaic Idealize.ShloMosaic.ValueIdx

/-- The scalar shape has one index. -/
instance : Subsingleton (⟨0, ![]⟩ : Shape).Idx := ⟨fun a b => funext fun d => d.elim0⟩

/-- The word `0x7F800000` denotes +∞. -/
theorem ofBits_inf : Ideal.ofBits .f32 0x7F800000#32 = (⊤ : EReal) := by
  simp [Ideal.ofBits, Ideal.ieee]

/-- An extended real whose absolute value `max x (-x)` is below +∞ is a real number. -/
theorem real_of_abs_lt_top (x : EReal) (h : Ideal.cmp .olt (max x (-x)) (⊤ : EReal) = 1#1) : ∃ r : ℝ, x = (r : EReal) := by
  have hlt : max x (-x) < (⊤ : EReal) := by
    by_contra hn
    simp [Ideal.cmp, hn] at h
  induction x using EReal.rec with
  | bot => simp at hlt
  | coe r => exact ⟨r, rfl⟩
  | top => simp at hlt

/-- `jnp.all(|a| < inf)` being true makes every entry of `a` a real number, whatever the array's shape. -/
theorem all_real {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : ∃ r : ℝ, a i = (r : EReal) := by
  have hi := Host.reduce_andi_all _ _ hr hu ix0 e i
  refine real_of_abs_lt_top (a i) ?_
  rw [← ofBits_inf]
  exact hi

/-- The printed precondition, unfolded: each of the five arrays holds real numbers only. -/
theorem of_pre [Cert.Pre_finite_inputs.Facts]
    (a0 : FVec Ideal ⟨3, ![4, 2048, 4096]⟩ .f32) (a1 : FVec Ideal ⟨2, ![4096, 1024]⟩ .f32) (a2 : FVec Ideal ⟨1, ![1024]⟩ .f32)
    (a3 : FVec Ideal ⟨2, ![4096, 1024]⟩ .f32) (a4 : FVec Ideal ⟨1, ![4096]⟩ .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real a0 _ _ _ e0, all_real a1 _ _ _ e1, all_real a2 _ _ _ e2, all_real a3 _ _ _ e3, all_real a4 _ _ _ e4⟩

end Cert.SvdLinear.Finite

end
-- ==== Proof.RefValue.lean ====
/-
  The reference's result, read entry by entry, is the matrix arrangement of the specification.

  The reference scales `U`'s columns by `S`, multiplies by `Vᵀ` to the square matrix `M`, contracts `x`'s last axis with
  `M`'s second, and adds `bias` along the last axis. Reading each stage at an index (the generated stage lemmas) and
  naming the composed index maps by their coordinates gives `viaMatrix` literally.
-/
import proofs.«134678_j88914412962285_2_alg».proof.Proof.Gen.ReferenceIdeal.Read
import proofs.«134678_j88914412962285_2_alg».proof.Proof.Spec

noncomputable section

namespace Cert.SvdLinear.RefValue

open Idealize.ShloMosaic Idealize.ShloMosaic.ValueIdx Cert.ReferenceIdeal Cert.ReferenceIdeal.Read

/-- The second contraction reads `x` at `(b, t, o)` … -/
theorem lidx5 (b : Fin 4) (t : Fin 2048) (q : Fin 4096) (k : Fin 4096) : lidx_main_v5 (ix3 b t q) k = ix3 b t k :=
  funext fun a => Fin.ext (by match a with | ⟨0, _⟩ => rfl | ⟨1, _⟩ => rfl | ⟨2, _⟩ => rfl)
/-- … and the matrix at `(q, o)`. -/
theorem ridx5 (b : Fin 4) (t : Fin 2048) (q : Fin 4096) (k : Fin 4096) : ridx_main_v5 (ix3 b t q) k = ix2 q k :=
  funext fun a => Fin.ext (by match a with | ⟨0, _⟩ => rfl | ⟨1, _⟩ => rfl)
/-- The first contraction reads the scaled `U` at `(q, r)` … -/
theorem lidx4 (q o : Fin 4096) (r : Fin 1024) : lidx_main_v4 (ix2 q o) r = ix2 q r :=
  funext fun a => Fin.ext (by match a with | ⟨0, _⟩ => rfl | ⟨1, _⟩ => rfl)
/-- … and the transposed `V` at `(r, o)`, … -/
theorem ridx4 (q o : Fin 4096) (r : Fin 1024) : ridx_main_v4 (ix2 q o) r = ix2 r o :=
  funext fun a => Fin.ext (by match a with | ⟨0, _⟩ => rfl | ⟨1, _⟩ => rfl)
/-- … which is `V` at `(o, r)`. -/
theorem idx3 (r : Fin 1024) (o : Fin 4096) : idx_main_v3 (ix2 r o) = ix2 o r :=
  funext fun a => Fin.ext (by match a with | ⟨0, _⟩ => rfl | ⟨1, _⟩ => rfl)
/-- `S` broadcast along the rows reads `S` at the column. -/
theorem idx01 (q : Fin 4096) (r : Fin 1024) : idx_main_v0 (idx_main_v1 (ix2 q r)) = ix1 r :=
  funext fun a => Fin.ext (by match a with | ⟨0, _⟩ => rfl)
/-- `bias` broadcast along the two leading axes reads `bias` at the last coordinate. -/
theorem idx67 (b : Fin 4) (t : Fin 2048) (q : Fin 4096) : idx_main_v6 (idx_main_v7 (ix3 b t q)) = ix1 q :=
  funext fun a => Fin.ext (by match a with | ⟨0, _⟩ => rfl)

/-- The reference's result is `viaMatrix` of the five arguments. -/
theorem ref_eq (x0 : FVec Ideal S4x2048x4096 .f32) (x1 : FVec Ideal S4096x1024 .f32) (x2 : FVec Ideal S1024 .f32)
    (x3 : FVec Ideal S4096x1024 .f32) (x4 : FVec Ideal S4096 .f32) :
    val_main_v8 (F := Ideal) x0 x1 x2 x3 x4 = Cert.SvdLinear.Spec.viaMatrix x0 x1 x2 x3 x4 := by
  funext i
  obtain ⟨b, t, q, rfl⟩ : ∃ (b : Fin 4) (t : Fin 2048) (q : Fin 4096), i = ix3 b t q := ⟨i 0, i 1, i 2, eq_ix3 i⟩
  rw [Cert.SvdLinear.Spec.viaMatrix_apply, val_main_v8_apply, val_main_v5_apply, val_main_v7_apply, val_main_v6_apply, idx67]
  show (∑ o : Fin 4096, x0 (lidx_main_v5 (ix3 b t q) o) * val_main_v4 (F := Ideal) x1 x2 x3 (ridx_main_v5 (ix3 b t q) o)) + x4 (ix1 q) = _
  congr 1
  refine Finset.sum_congr rfl fun o _ => ?_
  rw [lidx5, ridx5, val_main_v4_apply]
  congr 1
  refine Finset.sum_congr rfl fun r _ => ?_
  rw [lidx4, ridx4, val_main_v2_apply, val_main_v1_apply, val_main_v0_apply, val_main_v3_apply, idx3, idx01]
  rfl

end Cert.SvdLinear.RefValue

end
-- ==== Proof.Payload.lean ====
/-
  The kernel body's arithmetic at one entry of its output block.

  At a grid point the body holds a block of 256 rows of `x` (`x0`, [256, 4096]), the whole scaled factor `V · diag S`
  (`x1`, [4096, 1024]), the whole factor `U` (`x2`, [4096, 1024]) and `bias` as one row (`x3`, [1, 4096]). It multiplies
  `x0` by `x1` on the matrix unit (contracting the 4096 input features), multiplies the [256, 1024] product by `x2`
  contracting the rank axis of BOTH operands (so `U` is used untransposed), and adds the bias row to every row.
  On the extended reals the changes of float format are the identity and each matrix product into a zero accumulator
  is the plain sum of products, so entry `(p, q)` of the block is

      Σ_r (Σ_o x0 (p, o) · x1 (o, r)) · x2 (q, r)  +  x3 (0, q).
-/
import proofs.«134678_j88914412962285_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.SvdLinear.Payload

open Idealize.ShloMosaic Idealize.ShloMosaic.ValueIdx Cert.KernelIdeal Cert.KernelIdeal.Gen

/-- The first product's dimensions: [256, 4096] · [4096, 1024], contracting the left's columns with the right's rows. -/
abbrev D1 : DotDims S256x4096 S4096x1024 S256x1024 := dot_S256x4096_S4096x1024_S256x1024_1_0_0_1_n_n
/-- The second product's dimensions: [256, 1024] · [4096, 1024]ᵀ, contracting the columns of both. -/
abbrev D2 : DotDims S256x1024 S4096x1024 S256x4096 := dot_S256x1024_S4096x1024_S256x4096_1_1_0_0_n_n

/-! ## The operand indices of the two products, coordinate by coordinate -/

theorem d1_lhs0 (j : S256x1024.Idx) (k : D1.contr.Idx) : (D1.lhsIdx j k 0).val = (j 0).val := by
  unfold DotDims.lhsIdx
  rw [dif_neg (show ¬(0 : Fin S256x4096.rank) ∈ D1.lhsBatch by decide), dif_pos (show (0 : Fin S256x4096.rank) ∈ D1.lhsNonContracting by decide)]
  rfl
theorem d1_lhs1 (j : S256x1024.Idx) (k : D1.contr.Idx) : (D1.lhsIdx j k 1).val = (k ⟨0, by decide⟩).val :=
  D1.lhsIdx_val_of_single rfl j k
theorem d1_rhs0 (j : S256x1024.Idx) (k : D1.contr.Idx) : (D1.rhsIdx j k 0).val = (k ⟨0, by decide⟩).val :=
  D1.rhsIdx_val_of_single rfl j k
theorem d1_rhs1 (j : S256x1024.Idx) (k : D1.contr.Idx) : (D1.rhsIdx j k 1).val = (j 1).val := by
  unfold DotDims.rhsIdx
  rw [dif_neg (show ¬(1 : Fin S4096x1024.rank) ∈ D1.rhsBatch by decide), dif_pos (show (1 : Fin S4096x1024.rank) ∈ D1.rhsNonContracting by decide)]
  rfl

theorem d2_lhs0 (j : S256x4096.Idx) (k : D2.contr.Idx) : (D2.lhsIdx j k 0).val = (j 0).val := by
  unfold DotDims.lhsIdx
  rw [dif_neg (show ¬(0 : Fin S256x1024.rank) ∈ D2.lhsBatch by decide), dif_pos (show (0 : Fin S256x1024.rank) ∈ D2.lhsNonContracting by decide)]
  rfl
theorem d2_lhs1 (j : S256x4096.Idx) (k : D2.contr.Idx) : (D2.lhsIdx j k 1).val = (k ⟨0, by decide⟩).val :=
  D2.lhsIdx_val_of_single rfl j k
theorem d2_rhs0 (j : S256x4096.Idx) (k : D2.contr.Idx) : (D2.rhsIdx j k 0).val = (j 1).val := by
  unfold DotDims.rhsIdx
  rw [dif_neg (show ¬(0 : Fin S4096x1024.rank) ∈ D2.rhsBatch by decide), dif_pos (show (0 : Fin S4096x1024.rank) ∈ D2.rhsNonContracting by decide)]
  rfl
theorem d2_rhs1 (j : S256x4096.Idx) (k : D2.contr.Idx) : (D2.rhsIdx j k 1).val = (k ⟨0, by decide⟩).val :=
  D2.rhsIdx_val_of_single rfl j k

/-! ## The two products as sums -/

/-- The first product into a zero accumulator: entry `(p, c)` is `Σ_k l (p, k) · r (k, c)`. -/
theorem mm1_apply (l : FVec Ideal S256x4096 .bf16) (r : FVec Ideal S4096x1024 .bf16) (p : Fin 256) (c : Fin 1024) :
    matmul D1 none l r (constant (F := Ideal) S256x1024 .f32 0x00000000#32) (ix2 p c) = ∑ k : Fin 4096, l (ix2 p k) * r (ix2 k c) := by
  simp only [matmul]
  rw [Ideal.matmul_constant_zero_apply, ← Equiv.sum_comp (contrEquiv1 D1 4096 rfl rfl).symm]
  refine Finset.sum_congr rfl fun k _ => ?_
  have hk := contrEquiv1_symm_val D1 4096 rfl rfl k
  have el : D1.lhsIdx (ix2 p c) ((contrEquiv1 D1 4096 rfl rfl).symm k) = ix2 p k := funext fun a => Fin.ext (by
    match a with
    | ⟨0, _⟩ => exact d1_lhs0 _ _
    | ⟨1, _⟩ => exact (d1_lhs1 _ _).trans hk)
  have er : D1.rhsIdx (ix2 p c) ((contrEquiv1 D1 4096 rfl rfl).symm k) = ix2 k c := funext fun a => Fin.ext (by
    match a with
    | ⟨0, _⟩ => exact (d1_rhs0 _ _).trans hk
    | ⟨1, _⟩ => exact d1_rhs1 _ _)
  rw [el, er]

/-- The second product into a zero accumulator: entry `(p, q)` is `Σ_k l (p, k) · r (q, k)` — row `q` of the right operand. -/
theorem mm2_apply (l : FVec Ideal S256x1024 .bf16) (r : FVec Ideal S4096x1024 .bf16) (p : Fin 256) (q : Fin 4096) :
    matmul D2 none l r (constant (F := Ideal) S256x4096 .f32 0x00000000#32) (ix2 p q) = ∑ k : Fin 1024, l (ix2 p k) * r (ix2 q k) := by
  simp only [matmul]
  rw [Ideal.matmul_constant_zero_apply, ← Equiv.sum_comp (contrEquiv1 D2 1024 rfl rfl).symm]
  refine Finset.sum_congr rfl fun k _ => ?_
  have hk := contrEquiv1_symm_val D2 1024 rfl rfl k
  have el : D2.lhsIdx (ix2 p q) ((contrEquiv1 D2 1024 rfl rfl).symm k) = ix2 p k := funext fun a => Fin.ext (by
    match a with
    | ⟨0, _⟩ => exact d2_lhs0 _ _
    | ⟨1, _⟩ => exact (d2_lhs1 _ _).trans hk)
  have er : D2.rhsIdx (ix2 p q) ((contrEquiv1 D2 1024 rfl rfl).symm k) = ix2 q k := funext fun a => Fin.ext (by
    match a with
    | ⟨0, _⟩ => exact d2_rhs0 _ _
    | ⟨1, _⟩ => exact (d2_rhs1 _ _).trans hk)
  rw [el, er]

/-! ## The body's one store -/

/-- Entry `(p, q)` of what the body stores. -/
theorem pay_apply (x0 : FVec Ideal S256x4096 .f32) (x1 : FVec Ideal S4096x1024 .bf16) (x2 : FVec Ideal S4096x1024 .bf16)
    (x3 : FVec Ideal S1x4096 .f32) (p : Fin 256) (q : Fin 4096) :
    k0_pay1 (F := Ideal) x0 x1 x2 x3 (ix2 p q)
      = (∑ r : Fin 1024, (∑ o : Fin 4096, x0 (ix2 p o) * x1 (ix2 o r)) * x2 (ix2 q r)) + x3 (ix2 (0 : Fin 1) q) := by
  unfold k0_pay1
  rw [shapeCast_self, shapeCast_self, shapeCast_self, shapeCast_self, addf_apply, broadcastTo_1b_ab_apply, mm2_apply]
  congr 1
  refine Finset.sum_congr rfl fun r _ => ?_
  rw [truncf_apply, mm1_apply]
  congr 1

/-! ## The store in terms of whole arrays -/

/-- The output array as a function of the flattened `x` (`X`, [8192, 4096]), the scaled factor (`Vs`), the factor `U` (`Ub`)
    and the bias row (`b2`): entry `(P, q)` is `Σ_r (Σ_o X (P, o) · Vs (o, r)) · Ub (q, r) + b2 (0, q)` — row `P` of the output
    depends on row `P` of `X` only. -/
def rows (X : S8192x4096.Idx → EReal) (Vs Ub : S4096x1024.Idx → EReal) (b2 : S1x4096.Idx → EReal) : S8192x4096.Idx → EReal :=
  fun i => (∑ r : Fin 1024, (∑ o : Fin 4096, X (ix2 (i 0) o) * Vs (ix2 o r)) * Ub (ix2 (i 1) r)) + b2 (ix2 (0 : Fin 1) (i 1))

theorem rows_apply (X : S8192x4096.Idx → EReal) (Vs Ub : S4096x1024.Idx → EReal) (b2 : S1x4096.Idx → EReal) (P : Fin 8192) (q : Fin 4096) :
    rows X Vs Ub b2 (ix2 P q) = (∑ r : Fin 1024, (∑ o : Fin 4096, X (ix2 P o) * Vs (ix2 o r)) * Ub (ix2 q r)) + b2 (ix2 (0 : Fin 1) q) := rfl

/-- If the body's first operand is rows `256 T … 256 T + 255` of `X` and the other three are `Vs`, `Ub`, `b2`, then entry `y`
    of what it stores is `rows` at the entry `i = (256 T + y₀, y₁)` of the output. -/
theorem stored_rows (X : S8192x4096.Idx → EReal) (Vs Ub : S4096x1024.Idx → EReal) (b2 : S1x4096.Idx → EReal)
    (x0 : FVec Ideal S256x4096 .f32) (x1 x2 : FVec Ideal S4096x1024 .bf16) (x3 : FVec Ideal S1x4096 .f32) (T : Nat)
    (hx0 : ∀ (p : Fin 256) (o : Fin 4096) (P : Fin 8192), P.val = 256 * T + p.val → x0 (ix2 p o) = X (ix2 P o))
    (hx1 : x1 = Vs) (hx2 : x2 = Ub) (hx3 : x3 = b2)
    (y : S256x4096.Idx) (i : S8192x4096.Idx) (h0 : (i 0).val = 256 * T + (y 0).val) (h1 : (i 1).val = (y 1).val) :
    k0_pay1 (F := Ideal) x0 x1 x2 x3 y = rows X Vs Ub b2 i := by
  obtain ⟨p, q, rfl⟩ : ∃ (p : Fin 256) (q : Fin 4096), y = ix2 p q := ⟨y 0, y 1, eq_ix2 y⟩
  obtain ⟨P, Q, rfl⟩ : ∃ (P : Fin 8192) (Q : Fin 4096), i = ix2 P Q := ⟨i 0, i 1, eq_ix2 i⟩
  obtain rfl : Q = q := Fin.ext h1
  subst hx1 hx2 hx3
  rw [pay_apply, rows_apply]
  congr 1
  refine Finset.sum_congr rfl fun r _ => ?_
  congr 1
  refine Finset.sum_congr rfl fun o _ => ?_
  rw [hx0 p o P h0]

end Cert.SvdLinear.Payload

end
-- ==== Proof.Blocks.lean ====
/-
  From the grid's blocks to the whole output array.

  The grid has 32 points; point `t` is handed rows `256 t … 256 t + 255` of the flattened `x` ([8192, 4096]) and all of
  the three small operands, and writes rows `256 t … 256 t + 255` of the [8192, 4096] output. So what point `t` writes back
  is block `t` of ONE function of the four arrays the region is launched on (`rows`: row `P` of the output depends on row
  `P` of `x` only), the 32 blocks tile the output, and the output array after the run is that function.
-/
import proofs.«134678_j88914412962285_2_alg».proof.Proof.Gen.KernelIdeal.Frame
import proofs.«134678_j88914412962285_2_alg».proof.Proof.Payload

set_option maxRecDepth 16384

noncomputable section

namespace Cert.SvdLinear.Blocks

open Idealize.ShloMosaic Idealize.ShloMosaic.TcCoe Idealize.ShloMosaic.ValueIdx Idealize.SL.Sem
open Idealize.ShloMosaic.Pipeline (Dat)
open Cert.KernelIdeal Cert.KernelIdeal.Gen Cert.SvdLinear.Payload

variable (m : (ℓ : Loc nD τ sig) → Buf (Elt Ideal) ℓ)

theorem zero_offsets : (![0, 0] : Fin 2 → Nat) = fun _ => 0 := funext fun a => by fin_cases a <;> rfl

/-- The printed index maps over the 32 points: the `x` window and the output window are at row block `t`, the three small
    operands at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry `(p, o)` of the `x` block at point `t` is entry `(256 t + p, o)` of the flattened `x`. -/
theorem xblock_apply (c : Dev nD) (t : Fin cfg0.N) (p : Fin 256) (o : Fin 4096) (P : Fin 8192) (hP : P.val = 256 * t.val + p.val) :
    (iblk m c 0 t : Vec Ideal S256x4096 .f32) (ix2 p o) = (V m c main_v0 : S8192x4096.Idx → Elt Ideal .f32) (ix2 P o) := by
  obtain ⟨e00, e01, -⟩ := block_indices t
  unfold iblk
  rw [View.read_apply]
  show V m c main_v0 _ = V m c main_v0 _
  congr 1
  funext a
  apply Fin.ext
  match a with
  | ⟨0, _⟩ => show win0_0.index t (0 : Fin 2) * 256 + 1 * p.val = P.val; omega
  | ⟨1, _⟩ => show win0_0.index t (1 : Fin 2) * 4096 + 1 * o.val = o.val; omega

/-- The scaled factor's one block is the whole array. -/
theorem vsblock_eq (c : Dev nD) (t : Fin cfg0.N) :
    (iblk m c 1 t : Vec Ideal S4096x1024 .bf16) = (V m c main_v4 : S4096x1024.Idx → Elt Ideal .bf16) := by
  obtain ⟨-, -, e10, e11, -⟩ := block_indices t
  funext y
  unfold iblk
  rw [View.read_apply]
  show V m c main_v4 _ = V m c main_v4 _
  congr 1
  funext a
  apply Fin.ext
  match a with
  | ⟨0, _⟩ => show win0_1.index t (0 : Fin 2) * 4096 + 1 * (y 0).val = (y 0).val; omega
  | ⟨1, _⟩ => show win0_1.index t (1 : Fin 2) * 1024 + 1 * (y 1).val = (y 1).val; omega

/-- The factor `U`'s one block is the whole array. -/
theorem ublock_eq (c : Dev nD) (t : Fin cfg0.N) :
    (iblk m c 2 t : Vec Ideal S4096x1024 .bf16) = (V m c main_v5 : S4096x1024.Idx → Elt Ideal .bf16) := by
  obtain ⟨-, -, -, -, e20, e21, -⟩ := block_indices t
  funext y
  unfold iblk
  rw [View.read_apply]
  show V m c main_v5 _ = V m c main_v5 _
  congr 1
  funext a
  apply Fin.ext
  match a with
  | ⟨0, _⟩ => show win0_2.index t (0 : Fin 2) * 4096 + 1 * (y 0).val = (y 0).val; omega
  | ⟨1, _⟩ => show win0_2.index t (1 : Fin 2) * 1024 + 1 * (y 1).val = (y 1).val; omega

/-- The bias row's one block is the whole array. -/
theorem biasblock_eq (c : Dev nD) (t : Fin cfg0.N) :
    (iblk m c 3 t : Vec Ideal S1x4096 .f32) = (V m c main_v6 : S1x4096.Idx → Elt Ideal .f32) := by
  obtain ⟨-, -, -, -, -, -, e30, e31, -⟩ := block_indices t
  funext y
  unfold iblk
  rw [View.read_apply]
  show V m c main_v6 _ = V m c main_v6 _
  congr 1
  funext a
  apply Fin.ext
  match a with
  | ⟨0, _⟩ => show win0_3.index t (0 : Fin 2) * 1 + 1 * (y 0).val = (y 0).val; omega
  | ⟨1, _⟩ => show win0_3.index t (1 : Fin 2) * 4096 + 1 * (y 1).val = (y 1).val; omega

/-- WHAT POINT `t` WRITES BACK is block `t` of `rows` of the four arrays the region is launched on. -/
theorem flushed_eq (c : Dev nD) (t : Fin cfg0.N) :
    (dats m 0 c).flushed 4 t = ((cfg0.win 4).blk t).view.read (Elt Ideal)
      (rows (V m c main_v0) (V m c main_v4) (V m c main_v5) (V m c main_v6)) := by
  show (cfg0.win 4).cut (grid0.coords t) ((dats m 0 c).after 4 t) = _
  rw [after0_4]
  unfold out0_4
  rw [View.canon_unit_zero zero_offsets]
  simp only [View.ld_unit_zero (S := S256x4096) zero_offsets, View.ld_unit_zero (S := S4096x1024) zero_offsets,
    View.ld_unit_zero (S := S1x4096) zero_offsets]
  obtain ⟨-, -, -, -, -, -, -, -, e40, e41⟩ := block_indices t
  funext j
  show k0_pay1 (F := Ideal) (iblk m c 0 t) (iblk m c 1 t) (iblk m c 2 t) (iblk m c 3 t) j
    = rows (V m c main_v0) (V m c main_v4) (V m c main_v5) (V m c main_v6) (((cfg0.win 4).blk t).view.emb j)
  refine stored_rows _ _ _ _ (iblk m c 0 t) (iblk m c 1 t) (iblk m c 2 t) (iblk m c 3 t) t.val
    (xblock_apply m c t) (vsblock_eq m c t) (ublock_eq m c t) (biasblock_eq m c t) j _ ?_ ?_
  · show win0_4.index t (0 : Fin 2) * 256 + 1 * (j 0).val = 256 * t.val + (j 0).val; omega
  · show win0_4.index t (1 : Fin 2) * 4096 + 1 * (j 1).val = (j 1).val; omega

/-- An entry of the output array is in point `t`'s block iff each coordinate is in the block's range on its axis. -/
theorem mem_block (t : Fin cfg0.N) (i : S8192x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v7).slice (win0_4.rect t)).set ↔ _
  rw [View.set_slice_whole, Rect.mem_set_unit]
  exact Iff.rfl

/-- The 32 row blocks tile the output: row `P` is in the block of point `P / 256`, and every point writes back. -/
theorem covered (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, -, -, e40, e41⟩ := block_indices t
  refine ⟨t, flush0_4 t, ?_⟩
  rw [mem_block]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- THE OUTPUT ARRAY after the region is `rows` of the four arrays the region is launched on. -/
theorem final (c : Dev nD) :
    (dats m 0 c).arrAt 4 cfg0.N = rows (V m c main_v0) (V m c main_v4) (V m c main_v5) (V m c main_v6) :=
  (dats m 0 c).arrAt_eq_of_cover 4 _ (fun t _ => flushed_eq m c t) covered

end Cert.SvdLinear.Blocks

end
-- ==== Proof.HostOps.lean ====
/-
  The host operations around the call, as pure functions of the arguments, and what the call's output is of them.

  Before the pallas_call the program flattens `x` to [8192, 4096] (row `2048 b + t` is `x (b, t, ·)`), scales the columns of
  `V` by `S` (entry `(o, r)` becomes `V (o, r) · S r`), passes `U` through a change of float format (the identity on the
  extended reals) and views `bias` as one row; after the call it views the [8192, 4096] output as [4, 2048, 4096].
  The output array is `rows` of the four launched arrays, so entry `(b, t, q)` of the program's result is

      Σ_r (Σ_o x (b, t, o) · (V (o, r) · S r)) · U (q, r) + bias q,

  the rank arrangement of the specification.
-/
import proofs.«134678_j88914412962285_2_alg».proof.Proof.Payload
import proofs.«134678_j88914412962285_2_alg».proof.Proof.Spec

noncomputable section

namespace Cert.SvdLinear.HostOps

open Idealize.ShloMosaic Idealize.ShloMosaic.ValueIdx
open Cert.KernelIdeal Cert.KernelIdeal.Gen Cert.SvdLinear.Payload

/-- `x` flattened to [8192, 4096]. -/
def flatX (x : FVec Ideal S4x2048x4096 .f32) : FVec Ideal S8192x4096 .f32 :=
  shapeCast S8192x4096 x shapeCasts_S4x2048x4096_S8192x4096

/-- `V` with its columns scaled by `S`, in the narrower float format. -/
def scaledV (V : FVec Ideal S4096x1024 .f32) (S : FVec Ideal S1024 .f32) : FVec Ideal S4096x1024 .bf16 :=
  truncf .bf16 (mulf V (broadcastInDim S4096x1024 ![0, 1] bcast_S1x1024_S4096x1024_0_1
    (broadcastInDim S1x1024 ![1] bcast_S1024_S1x1024_1 S))) bitsLt_bf16_f32

/-- `U` in the narrower float format. -/
def narrowU (U : FVec Ideal S4096x1024 .f32) : FVec Ideal S4096x1024 .bf16 := truncf .bf16 U bitsLt_bf16_f32

/-- `bias` as one row. -/
def biasRow (bias : FVec Ideal S4096 .f32) : FVec Ideal S1x4096 .f32 := shapeCast S1x4096 bias shapeCasts_S4096_S1x4096

/-- Row `P = 2048 b + t`, column `o`, of the flattened `x` is `x (b, t, o)`. -/
theorem flatX_apply (x : FVec Ideal S4x2048x4096 .f32) (b : Fin 4) (t : Fin 2048) (o : Fin 4096) (P : Fin 8192)
    (hP : P.val = 2048 * b.val + t.val) : flatX x (ix2 P o) = x (ix3 b t o) := by
  unfold flatX
  refine shapeCast_apply _ _ _ _ ?_
  show ((⟨3, ![4, 2048, 4096]⟩ : Shape).rowMajor (ix3 b t o)).val = ((⟨2, ![8192, 4096]⟩ : Shape).rowMajor (ix2 P o)).val
  rw [Shape.rowMajor_val_three, Shape.rowMajor_val_two]
  show (b.val * 2048 + t.val) * 4096 + o.val = P.val * 4096 + o.val
  rw [hP, Nat.mul_comm 2048 b.val]

/-- `S` as a row, repeated down the 4096 rows, reads `S r` at `(o, r)`. -/
theorem rowS_apply (S : FVec Ideal S1024 .f32) (o : Fin 4096) (r : Fin 1024) :
    broadcastInDim S4096x1024 ![0, 1] bcast_S1x1024_S4096x1024_0_1 (broadcastInDim S1x1024 ![1] bcast_S1024_S1x1024_1 S) (ix2 o r)
      = S (ix1 r) := by
  rw [broadcastInDim_apply _ bcast_S1x1024_S4096x1024_0_1 _ (ix2 o r) (ix2 (0 : Fin 1) r) (fun a => match a with
      | ⟨0, _⟩ => by show 0 = if (1 : Nat) = 1 then 0 else o.val; rw [if_pos rfl]
      | ⟨1, _⟩ => by show r.val = if (1024 : Nat) = 1 then 0 else r.val; rw [if_neg (by decide)]),
    broadcastInDim_apply _ bcast_S1024_S1x1024_1 S (ix2 (0 : Fin 1) r) (ix1 r) (fun a => match a with
      | ⟨0, _⟩ => by show r.val = if (1024 : Nat) = 1 then 0 else r.val; rw [if_neg (by decide)])]

/-- Entry `(o, r)` of the scaled factor is `V (o, r) · S r`. -/
theorem scaledV_apply (V : FVec Ideal S4096x1024 .f32) (S : FVec Ideal S1024 .f32) (o : Fin 4096) (r : Fin 1024) :
    scaledV V S (ix2 o r) = V (ix2 o r) * S (ix1 r) := by
  unfold scaledV
  rw [truncf_apply, mulf_apply, rowS_apply]

/-- The change of format leaves `U`'s entries as they are. -/
theorem narrowU_apply (U : FVec Ideal S4096x1024 .f32) (q : Fin 4096) (r : Fin 1024) : narrowU U (ix2 q r) = U (ix2 q r) := rfl

/-- Entry `(0, q)` of the bias row is `bias q`. -/
theorem biasRow_apply (bias : FVec Ideal S4096 .f32) (q : Fin 4096) : biasRow bias (ix2 (0 : Fin 1) q) = bias (ix1 q) := by
  unfold biasRow
  exact shapeCast_a_1a_apply bias shapeCasts_S4096_S1x4096 (0 : Fin 1) q

/-- The call's output of the four launched arrays, viewed [4, 2048, 4096], is the rank arrangement of the arguments. -/
theorem result_eq (x : FVec Ideal S4x2048x4096 .f32) (U : FVec Ideal S4096x1024 .f32) (S : FVec Ideal S1024 .f32)
    (V : FVec Ideal S4096x1024 .f32) (bias : FVec Ideal S4096 .f32) :
    shapeCast S4x2048x4096 (rows (flatX x) (scaledV V S) (narrowU U) (biasRow bias)) shapeCasts_S8192x4096_S4x2048x4096
      = Cert.SvdLinear.Spec.viaRank x U S V bias := by
  funext i
  obtain ⟨b, t, q, rfl⟩ : ∃ (b : Fin 4) (t : Fin 2048) (q : Fin 4096), i = ix3 b t q := ⟨i 0, i 1, i 2, eq_ix3 i⟩
  have hb : b.val < 4 := b.isLt
  have ht : t.val < 2048 := t.isLt
  obtain ⟨P, hP⟩ : ∃ P : Fin 8192, P.val = 2048 * b.val + t.val := ⟨⟨2048 * b.val + t.val, by omega⟩, rfl⟩
  rw [shapeCast_apply _ shapeCasts_S8192x4096_S4x2048x4096 (ix3 b t q) (ix2 P q) (by
      show ((⟨2, ![8192, 4096]⟩ : Shape).rowMajor (ix2 P q)).val = ((⟨3, ![4, 2048, 4096]⟩ : Shape).rowMajor (ix3 b t q)).val
      rw [Shape.rowMajor_val_three, Shape.rowMajor_val_two]
      show P.val * 4096 + q.val = (b.val * 2048 + t.val) * 4096 + q.val
      rw [hP, Nat.mul_comm 2048 b.val]),
    rows_apply, Cert.SvdLinear.Spec.viaRank_apply, biasRow_apply]
  congr 1
  refine Finset.sum_congr rfl fun r _ => ?_
  rw [narrowU_apply]
  congr 1
  refine Finset.sum_congr rfl fun o _ => ?_
  rw [flatX_apply x b t o P hP, scaledV_apply]

end Cert.SvdLinear.HostOps

end
-- ==== Proof.KernelValue.lean ====
/-
  The kernel program's result buffer after the run is the rank arrangement of the five arguments.

  The frame run leaves the call's output array at `rows` of the four arrays the region was launched on (`Blocks`); those
  four arrays are the host operations before the call applied to the arguments, and the result buffer is the host
  operation after the call applied to the output array. `HostOps` names these operations and computes the composite.
-/
import proofs.«134678_j88914412962285_2_alg».proof.Proof.Blocks
import proofs.«134678_j88914412962285_2_alg».proof.Proof.HostOps
import Idealize.ShloMosaic.Lib.StableHlo.Run

set_option maxRecDepth 16384

noncomputable section

namespace Cert.SvdLinear.KernelValue

open Idealize.ShloMosaic Idealize.ShloMosaic.TcCoe Idealize.ShloMosaic.ValueIdx Idealize.SL.Sem Idealize.ShloMosaic.StableHlo
open Cert.KernelIdeal Cert.KernelIdeal.Gen Cert.SvdLinear.Payload Cert.SvdLinear.HostOps

variable (m : (ℓ : Loc nD τ sig) → Buf (Elt Ideal) ℓ)

/-- The call's first operand is `x` flattened. -/
theorem launched_x (c : Dev nD) : V m c main_v0 = flatX (m ((c : Thread nD τ).loc main_arg0)) := by
  show StableHlo.after hostOps0 (fun b => m (c, b)) (Proc.devRef .tc main_v0) = _
  after_results
  rfl

/-- Its second is `V` scaled by `S`. -/
theorem launched_v (c : Dev nD) :
    V m c main_v4 = scaledV (m ((c : Thread nD τ).loc main_arg3)) (m ((c : Thread nD τ).loc main_arg2)) := by
  show StableHlo.after hostOps0 (fun b => m (c, b)) (Proc.devRef .tc main_v4) = _
  after_results
  rfl

/-- Its third is `U`. -/
theorem launched_u (c : Dev nD) : V m c main_v5 = narrowU (m ((c : Thread nD τ).loc main_arg1)) := by
  show StableHlo.after hostOps0 (fun b => m (c, b)) (Proc.devRef .tc main_v5) = _
  after_results
  rfl

/-- Its fourth is `bias` as a row. -/
theorem launched_bias (c : Dev nD) : V m c main_v6 = biasRow (m ((c : Thread nD τ).loc main_arg4)) := by
  show StableHlo.after hostOps0 (fun b => m (c, b)) (Proc.devRef .tc main_v6) = _
  after_results
  rfl

/-- The program's result buffer after the run, as the frame run's post names it. -/
theorem result_eq (c : Dev nD) :
    Pipeline.afterTail₀ cfgs (dats m) 0 (V0 m) [hostOps1] c main_v8
      = Cert.SvdLinear.Spec.viaRank (m ((c : Thread nD τ).loc main_arg0)) (m ((c : Thread nD τ).loc main_arg1))
          (m ((c : Thread nD τ).loc main_arg2)) (m ((c : Thread nD τ).loc main_arg3)) (m ((c : Thread nD τ).loc main_arg4)) := by
  have harr : Pipeline.withArrays (cfgs 0).spec c (V0 m c) (fun w => (dats m 0 c).arrAt w (cfgs 0).N) (Proc.devRef .tc main_v7)
      = rows (flatX (m ((c : Thread nD τ).loc main_arg0)))
          (scaledV (m ((c : Thread nD τ).loc main_arg3)) (m ((c : Thread nD τ).loc main_arg2)))
          (narrowU (m ((c : Thread nD τ).loc main_arg1))) (biasRow (m ((c : Thread nD τ).loc main_arg4))) := by
    refine (Pipeline.withArrays_arr spec0 launch0.win.arr_inj c _ _ 4).trans ?_
    rw [Cert.SvdLinear.Blocks.final m c, launched_x, launched_v, launched_u, launched_bias]
  unfold Pipeline.afterTail₀
  show StableHlo.after hostOps1 _ (Proc.devRef .tc main_v8) = _
  after_results
  rw [harr]
  exact Cert.SvdLinear.HostOps.result_eq _ _ _ _ _

end Cert.SvdLinear.KernelValue

end
-- ==== Proof.lean ====
/-
  A low-rank linear layer, `out = x · (U · diag S · Vᵀ)ᵀ + bias`, computed two ways.

  The reference forms the 4096 × 4096 matrix `M = (U · diag S) · Vᵀ` and contracts `x` with it:
  `out (b, t, q) = Σ_o x (b, t, o) · (Σ_r U (q, r) · S r · V (o, r)) + bias q`.
  The kernel never forms `M`: it folds `S` into `V`, and for each block of 256 rows of the flattened `x` it multiplies by
  `V · diag S` (to rank 1024) and then by `Uᵀ`:
  `out (b, t, q) = Σ_r (Σ_o x (b, t, o) · (V (o, r) · S r)) · U (q, r) + bias q`.
  Both are the double sum of `x (b, t, o) · V (o, r) · S r · U (q, r)` over `o` and `r`. On the extended reals a change of
  float format is the identity and each matrix product is an exact sum, so the only thing between the two programs is
  the rearrangement — distributing a factor over a sum and exchanging the two sums — which holds for real numbers;
  the precondition (every input finite) makes every entry a real number.

  The modules: `Spec` (the two arrangements and the law), `Finite` (finite inputs are real), `RefValue` (the reference's
  result is the matrix arrangement), `Payload` (the kernel body's arithmetic at an entry), `Blocks` (the 32 row blocks
  tile the output array), `KernelValue` (the reshapes and the scaling around the call: the kernel program's result is
  the rank arrangement). Here: the three frames, and the two runs side by side.
-/
import proofs.«134678_j88914412962285_2_alg».proof.Defs
import proofs.«134678_j88914412962285_2_alg».proof.Proof.Gen.Kernel
import proofs.«134678_j88914412962285_2_alg».proof.Proof.Gen.Kernel.Skeleton
import proofs.«134678_j88914412962285_2_alg».proof.Proof.Gen.Kernel.Launch
import proofs.«134678_j88914412962285_2_alg».proof.Proof.Gen.Kernel.Points
import proofs.«134678_j88914412962285_2_alg».proof.Proof.Gen.Kernel.Frame
import proofs.«134678_j88914412962285_2_alg».proof.Proof.Gen.KernelIdeal
import proofs.«134678_j88914412962285_2_alg».proof.Proof.Gen.KernelIdeal.Skeleton
import proofs.«134678_j88914412962285_2_alg».proof.Proof.Gen.KernelIdeal.Launch
import proofs.«134678_j88914412962285_2_alg».proof.Proof.Gen.KernelIdeal.Points
import proofs.«134678_j88914412962285_2_alg».proof.Proof.Gen.KernelIdeal.Frame
import proofs.«134678_j88914412962285_2_alg».proof.Proof.Gen.ReferenceIdeal
import proofs.«134678_j88914412962285_2_alg».proof.Proof.Gen.ReferenceIdeal.Run
import proofs.«134678_j88914412962285_2_alg».proof.Proof.Gen.ReferenceIdeal.Read
import proofs.«134678_j88914412962285_2_alg».proof.Proof.Gen.Pre_finite_inputs
import proofs.«134678_j88914412962285_2_alg».proof.Proof.Spec
import proofs.«134678_j88914412962285_2_alg».proof.Proof.Finite
import proofs.«134678_j88914412962285_2_alg».proof.Proof.RefValue
import proofs.«134678_j88914412962285_2_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs, and its arguments end unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs, and its arguments end unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading on the extended reals. -/
theorem preserves : Cert.preserves_Kernel_KernelIdeal := trivial

section KernelRun

open Cert.KernelIdeal Cert.KernelIdeal.Gen

/-- The kernel program's run on the extended reals: the result buffer ends at the rank arrangement of the five
    arguments, and the arguments end unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8)
        = Cert.SvdLinear.Spec.viaRank (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (Cert.SvdLinear.KernelValue.result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end KernelRun

/-- On the extended reals, from memories that agree on the five finite arguments, the kernel program ends with the rank
    arrangement in its result buffer and the reference with the matrix arrangement: one array, by the law of `Spec`. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.SvdLinear.RefValue.ref_eq,
    (hagree c).1, (hagree c).2.1, (hagree c).2.2.1, (hagree c).2.2.2.1, (hagree c).2.2.2.2]
  obtain ⟨h0, h1, h2, h3, h4⟩ := Cert.SvdLinear.Finite.of_pre _ _ _ _ _ (hpre c)
  exact (Cert.SvdLinear.Spec.viaRank_eq_viaMatrix _ _ _ _ _ h0 h1 h2 h3 h4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
